-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x2048 : Shape := ⟨3, ![256, 64, 2048]⟩
abbrev S256x512 : Shape := ⟨2, ![256, 512]⟩
abbrev S2048x512 : Shape := ⟨2, ![2048, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S256x64x2048 : S_.BroadcastsInDim S256x64x2048 (![] : Fin 0 → Fin S256x64x2048.rank)
  reducesTo_S256x64x2048_S_d0_1_2 : S256x64x2048.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S256x64x2048 .f32) (main_arg1 : FVec F S256x512 .f32) (main_arg2 : FVec F S2048x512 .f32) (main_arg3 : FVec F S512 .f32) (main_arg4 : FVec F S512x512 .f32) (main_arg5 : FVec F S512 .f32) (main_arg6 : FVec F S512x1 .f32) (main_arg7 : FVec F S1 .f32) : IVec S_ 1 :=
  let main_v0 : FVec F S256x64x2048 .f32 := Host.absf main_arg0
  let main_cst : FVec F S_ .f32 := constant S_ .f32 0x7F800000#32
  let main_v1 : FVec F S256x64x2048 .f32 := broadcastInDim S256x64x2048 ![] bcast_S_S256x64x2048 main_cst
  let main_v2 : IVec S256x64x2048 1 := cmpf .olt main_v0 main_v1
  let main_c : IVec S_ 1 := constantI S_ 1 1#1
  let main_v3 : IVec S_ 1 := (fun x v => Host.reduce IntOp.andi x v reducesTo_S256x64x2048_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S256x64x2048 : Shape := ⟨3, ![256, 64, 2048]⟩
abbrev S256x512 : Shape := ⟨2, ![256, 512]⟩
abbrev S2048x512 : Shape := ⟨2, ![2048, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S256x2048 : Shape := ⟨2, ![256, 2048]⟩
abbrev S16x64x2048 : Shape := ⟨3, ![16, 64, 2048]⟩
abbrev S16x512 : Shape := ⟨2, ![16, 512]⟩
abbrev S16x2048 : Shape := ⟨2, ![16, 2048]⟩
abbrev S1024x2048 : Shape := ⟨2, ![1024, 2048]⟩
abbrev S1024x512 : Shape := ⟨2, ![1024, 512]⟩
abbrev S1x512 : Shape := ⟨2, ![1, 512]⟩
abbrev S16x64x512 : Shape := ⟨3, ![16, 64, 512]⟩
abbrev S16x1x512 : Shape := ⟨3, ![16, 1, 512]⟩
abbrev S1024x1 : Shape := ⟨2, ![1024, 1]⟩
abbrev S1x1 : Shape := ⟨2, ![1, 1]⟩
abbrev S16x64 : Shape := ⟨2, ![16, 64]⟩
abbrev S16 : Shape := ⟨1, ![16]⟩
abbrev S16x1 : Shape := ⟨2, ![16, 1]⟩
abbrev S16x64x1 : Shape := ⟨3, ![16, 64, 1]⟩

abbrev nBuf : Space → Nat
  | .hbm => 9
  | .vmem => 12
  | .smem => 0
  | _ => 0

abbrev bufTy : (tb : Table) → Fin (tcTables nBuf tb) → BufTy
  | .hbm, ⟨0, _⟩ => ⟨S256x64x2048, .f32⟩
  | .hbm, ⟨1, _⟩ => ⟨S256x512, .f32⟩
  | .hbm, ⟨2, _⟩ => ⟨S2048x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S256x2048, .f32⟩
  | .local _ .vmem, ⟨0, _⟩ => ⟨S16x64x2048, .f32⟩
  | .local _ .vmem, ⟨1, _⟩ => ⟨S16x64x2048, .f32⟩
  | .local _ .vmem, ⟨2, _⟩ => ⟨S16x512, .f32⟩
  | .local _ .vmem, ⟨3, _⟩ => ⟨S16x512, .f32⟩
  | .local _ .vmem, ⟨4, _⟩ => ⟨S2048x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S512x1, .f32⟩
  | .local _ .vmem, ⟨9, _⟩ => ⟨S1, .f32⟩
  | .local _ .vmem, ⟨10, _⟩ => ⟨S16x2048, .f32⟩
  | .local _ .vmem, ⟨11, _⟩ => ⟨S16x2048, .f32⟩
  | _, _ => ⟨S256x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S16x64x2048_S16x64x2048_0_0_0 : ∀ a, (![0, 0, 0] : Fin 3 → Nat) a + S16x64x2048.size a ≤ S16x64x2048.size a
  h_S16x64x2048 : 0 < S16x64x2048.numel
  shapeCasts_S16x64x2048_S1024x2048 : S16x64x2048.ShapeCasts S1024x2048
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  shapeCasts_S1024x512_S16x64x512 : S1024x512.ShapeCasts S16x64x512
  inb_S16x512_S16x512_0_0 : ∀ a, (![0, 0] : Fin 2 → Nat) a + S16x512.size a ≤ S16x512.size a
  h_S16x512 : 0 < S16x512.numel
  inb_S512x512_S512x512_0_0 : ∀ a, (![0, 0] : Fin 2 → Nat) a + S512x512.size a ≤ S512x512.size a
  h_S512x512 : 0 < S512x512.numel
  broadcasts_S1x512_S16x512 : S1x512.Broadcasts S16x512
  shapeCasts_S16x512_S16x1x512 : S16x512.ShapeCasts S16x1x512
  broadcasts_S16x1x512_S16x64x512 : S16x1x512.Broadcasts S16x64x512
  shapeCasts_S16x64x512_S1024x512 : S16x64x512.ShapeCasts S1024x512
  inb_S512x1_S512x1_0_0 : ∀ a, (![0, 0] : Fin 2 → Nat) a + S512x1.size a ≤ S512x1.size a
  h_S512x1 : 0 < S512x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  shapeCasts_S1024x1_S16x64 : S1024x1.ShapeCasts S16x64
  reduces_S16x64_S16 : S16x64.Reduces [1] S16
  shapeCasts_S16_S16x1 : S16.ShapeCasts S16x1
  broadcasts_S16x1_S16x64 : S16x1.Broadcasts S16x64
  shapeCasts_S16x64_S16x64x1 : S16x64.ShapeCasts S16x64x1
  broadcasts_S16x64x1_S16x64x2048 : S16x64x1.Broadcasts S16x64x2048
  reduces_S16x64x2048_S16x2048 : S16x64x2048.Reduces [1] S16x2048
  inb_S16x2048_S16x2048_0_0 : ∀ a, (![0, 0] : Fin 2 → Nat) a + S16x2048.size a ≤ S16x2048.size a
  h_S16x2048 : 0 < S16x2048.numel
  dot_S1024x2048_S2048x512_S1024x512_1_0_0_1_n_n_wf : DotDims.WF S1024x2048 S2048x512 S1024x512 [1] [0] [0] [1] [] []
  dot_S16x512_S512x512_S16x512_1_0_0_1_n_n_wf : DotDims.WF S16x512 S512x512 S16x512 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x2048.size a ≤ S256x64x2048.size a
  hwx0_0 : ∀ i : grid0.Coords, EltTy.bits .f32 = 32 ∨ (Rect.block (s := S256x64x2048) S16x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S256x512.size a
  hwx0_1 : ∀ i : grid0.Coords, EltTy.bits .f32 = 32 ∨ (Rect.block (s := S256x512) S16x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .f32 = 32 ∨ (Rect.block (s := S2048x512) S2048x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .f32 = 32 ∨ (Rect.block (s := S512x1) S512x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x2048.size a ≤ S256x2048.size a
  hwx0_8 : ∀ i : grid0.Coords, EltTy.bits .f32 = 32 ∨ (Rect.block (s := S256x2048) S16x2048.size (cc0_transform_8 i) (hinb0_8 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_arg0) S16x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S16x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S256x64x2048 : Shape := ⟨3, ![256, 64, 2048]⟩
abbrev S256x512 : Shape := ⟨2, ![256, 512]⟩
abbrev S2048x512 : Shape := ⟨2, ![2048, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S1x512 : Shape := ⟨2, ![1, 512]⟩
abbrev S256x1x512 : Shape := ⟨3, ![256, 1, 512]⟩
abbrev S256x64x512 : Shape := ⟨3, ![256, 64, 512]⟩
abbrev S1x1x512 : Shape := ⟨3, ![1, 1, 512]⟩
abbrev S256x64x1 : Shape := ⟨3, ![256, 64, 1]⟩
abbrev S1x1x1 : Shape := ⟨3, ![1, 1, 1]⟩
abbrev S_ : Shape := ⟨0, ![]⟩
abbrev S256x1 : Shape := ⟨2, ![256, 1]⟩
abbrev S256x1x1 : Shape := ⟨3, ![256, 1, 1]⟩
abbrev S256x2048 : Shape := ⟨2, ![256, 2048]⟩

abbrev nBuf : Space → Nat
  | .hbm => 42
  | .vmem => 0
  | .smem => 0
  | _ => 0

abbrev bufTy : (tb : Table) → Fin (tcTables nBuf tb) → BufTy
  | .hbm, ⟨0, _⟩ => ⟨S256x64x2048, .f32⟩
  | .hbm, ⟨1, _⟩ => ⟨S256x512, .f32⟩
  | .hbm, ⟨2, _⟩ => ⟨S2048x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S256x512, .f32⟩
  | .hbm, ⟨9, _⟩ => ⟨S1x512, .f32⟩
  | .hbm, ⟨10, _⟩ => ⟨S256x512, .f32⟩
  | .hbm, ⟨11, _⟩ => ⟨S256x512, .f32⟩
  | .hbm, ⟨12, _⟩ => ⟨S256x1x512, .f32⟩
  | .hbm, ⟨13, _⟩ => ⟨S256x64x512, .f32⟩
  | .hbm, ⟨14, _⟩ => ⟨S1x1x512, .f32⟩
  | .hbm, ⟨15, _⟩ => ⟨S256x64x512, .f32⟩
  | .hbm, ⟨16, _⟩ => ⟨S256x64x512, .f32⟩
  | .hbm, ⟨17, _⟩ => ⟨S256x64x512, .f32⟩
  | .hbm, ⟨18, _⟩ => ⟨S256x64x512, .f32⟩
  | .hbm, ⟨19, _⟩ => ⟨S256x64x512, .f32⟩
  | .hbm, ⟨20, _⟩ => ⟨S256x64x1, .f32⟩
  | .hbm, ⟨21, _⟩ => ⟨S1x1x1, .f32⟩
  | .hbm, ⟨22, _⟩ => ⟨S256x64x1, .f32⟩
  | .hbm, ⟨23, _⟩ => ⟨S256x64x1, .f32⟩
  | .hbm, ⟨24, _⟩ => ⟨S_, .f32⟩
  | .hbm, ⟨25, _⟩ => ⟨S256x1, .f32⟩
  | .hbm, ⟨26, _⟩ => ⟨S_, .f32⟩
  | .hbm, ⟨27, _⟩ => ⟨S256x1, .f32⟩
  | .hbm, ⟨28, _⟩ => ⟨S256x1, .f32⟩
  | .hbm, ⟨29, _⟩ => ⟨S256x1x1, .f32⟩
  | .hbm, ⟨30, _⟩ => ⟨S256x64x1, .f32⟩
  | .hbm, ⟨31, _⟩ => ⟨S256x64x1, .f32⟩
  | .hbm, ⟨32, _⟩ => ⟨S256x64x1, .f32⟩
  | .hbm, ⟨33, _⟩ => ⟨S_, .f32⟩
  | .hbm, ⟨34, _⟩ => ⟨S256x1, .f32⟩
  | .hbm, ⟨35, _⟩ => ⟨S256x1x1, .f32⟩
  | .hbm, ⟨36, _⟩ => ⟨S256x64x1, .f32⟩
  | .hbm, ⟨37, _⟩ => ⟨S256x64x1, .f32⟩
  | .hbm, ⟨38, _⟩ => ⟨S256x64x2048, .f32⟩
  | .hbm, ⟨39, _⟩ => ⟨S256x64x2048, .f32⟩
  | .hbm, ⟨40, _⟩ => ⟨S_, .f32⟩
  | .hbm, ⟨41, _⟩ => ⟨S256x2048, .f32⟩
  | _, _ => ⟨S256x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  bcast_S256x512_S256x1x512_0_2 : S256x512.BroadcastsInDim S256x1x512 (![0, 2] : Fin 2 → Fin S256x1x512.rank)
  bcast_S512_S1x1x512_2 : S512.BroadcastsInDim S1x1x512 (![2] : Fin 1 → Fin S1x1x512.rank)
  bcast_S1x1x512_S256x64x512_0_1_2 : S1x1x512.BroadcastsInDim S256x64x512 (![0, 1, 2] : Fin 3 → Fin S256x64x512.rank)
  bcast_S256x1x512_S256x64x512_0_1_2 : S256x1x512.BroadcastsInDim S256x64x512 (![0, 1, 2] : Fin 3 → Fin S256x64x512.rank)
  bcast_S1_S1x1x1_2 : S1.BroadcastsInDim S1x1x1 (![2] : Fin 1 → Fin S1x1x1.rank)
  bcast_S1x1x1_S256x64x1_0_1_2 : S1x1x1.BroadcastsInDim S256x64x1 (![0, 1, 2] : Fin 3 → Fin S256x64x1.rank)
  reducesTo_S256x64x1_S256x1_d1 : S256x64x1.ReducesTo [1] S256x1
  h_S_ : 0 < S_.numel
  bcast_S_S256x1 : S_.BroadcastsInDim S256x1 (![] : Fin 0 → Fin S256x1.rank)
  bcast_S256x1_S256x1x1_0_2 : S256x1.BroadcastsInDim S256x1x1 (![0, 2] : Fin 2 → Fin S256x1x1.rank)
  bcast_S256x1x1_S256x64x1_0_1_2 : S256x1x1.BroadcastsInDim S256x64x1 (![0, 1, 2] : Fin 3 → Fin S256x64x1.rank)
  bcast_S256x64x1_S256x64x2048_0_1_2 : S256x64x1.BroadcastsInDim S256x64x2048 (![0, 1, 2] : Fin 3 → Fin S256x64x2048.rank)
  reducesTo_S256x64x2048_S256x2048_d1 : S256x64x2048.ReducesTo [1] S256x2048
  dot_S256x512_S512x512_S256x512_1_0_0_1_n_n_wf : DotDims.WF S256x512 S512x512 S256x512 [1] [0] [0] [1] [] []
  dot_S256x64x2048_S2048x512_S256x64x512_2_0_01_1_n_n_wf : DotDims.WF S256x64x2048 S2048x512 S256x64x512 [2] [0] [0, 1] [1] [] []
  dot_S256x64x512_S512x1_S256x64x1_2_0_01_1_n_n_wf : DotDims.WF S256x64x512 S512x1 S256x64x1 [2] [0] [0, 1] [1] [] []

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x64x2048_S2048x512_S256x64x512_2_0_01_1_n_n : DotDims S256x64x2048 S2048x512 S256x64x512 where
  lhsContracting := [2]
  rhsContracting := [0]
  lhsNonContracting := [0, 1]
  rhsNonContracting := [1]
  lhsBatch := []
  rhsBatch := []
  wf := dot_S256x64x2048_S2048x512_S256x64x512_2_0_01_1_n_n_wf
def dot_S256x64x512_S512x1_S256x64x1_2_0_01_1_n_n : DotDims S256x64x512 S512x1 S256x64x1 where
  lhsContracting := [2]
  rhsContracting := [0]
  lhsNonContracting := [0, 1]
  rhsNonContracting := [1]
  lhsBatch := []
  rhsBatch := []
  wf := dot_S256x64x512_S512x1_S256x64x1_2_0_01_1_n_n_wf

class Facts : Prop extends Facts₀ where

variable [Facts]
-- ==== Proof.AttentionSpec.lean ====
/-
  Additive attention over ONE batch row, on the extended reals.

  A row has 64 positions, each a feature vector of 2048 entries, and a previous state of 512 entries. With
  `W`, `U` the two projections into 512 hidden units, `bW`, `bU` their biases, `v` the scoring vector and `bv` its
  bias:
    query d      = Σ_h state h · U h d + bU d
    hidden r d   = tanh ((Σ_f x r f · W f d + bW d) + query d)
    score r      = Σ_d hidden r d · v d + bv
    peak         = max (-∞) (max over r of score r, folded from -∞)
    unnorm r     = exp (score r − peak)
    total        = Σ_r unnorm r
    weight r     = unnorm r / total
    context f    = Σ_r weight r · x r f
  The softmax is the stabilised one: the scores are shifted by their maximum before the exponential. Nothing here
  needs the entries to be finite: every step is an operation of the extended reals read as it stands.

  `attend` is the whole result array [256, 2048] of the argument arrays, row `b` of it the context of batch row `b`;
  `attendTile` is the same over a tile of 16 batch rows.
-/
import Idealize.ShloMosaic.PureOps.Ideal
import Idealize.ShloMosaic.Lib.ValueIdx

noncomputable section

open scoped BigOperators

namespace Cert.Attention

open Idealize.ShloMosaic Idealize.ShloMosaic.ValueIdx

/-- The word of f32's negative infinity, read on the extended reals: the value both maxima start from. -/
abbrev negInf : EReal := Ideal.ofBits .f32 0xFF800000#32

section Row

variable (x : Fin 64 → Fin 2048 → EReal) (state : Fin 512 → EReal)
  (W : Fin 2048 → Fin 512 → EReal) (bW : Fin 512 → EReal)
  (U : Fin 512 → Fin 512 → EReal) (bU : Fin 512 → EReal)
  (v : Fin 512 → EReal) (bv : EReal)

/-- The previous state projected into the hidden units. -/
def query (d : Fin 512) : EReal := (∑ h : Fin 512, state h * U h d) + bU d

/-- Hidden unit `d` at position `r`: the position's features projected, plus the query, through tanh. -/
def hidden (r : Fin 64) (d : Fin 512) : EReal :=
  Ideal.tanh (((∑ f : Fin 2048, x r f * W f d) + bW d) + query state U bU d)

/-- The score of position `r`. -/
def score (r : Fin 64) : EReal := (∑ d : Fin 512, hidden x state W bW U bU r d * v d) + bv

/-- The largest score of the row (both maxima start from -∞). -/
def peak : EReal :=
  max negInf ((Finset.univ : Finset (Fin 64)).fold max negInf (score x state W bW U bU v bv))

/-- The exponential of a score shifted by the row's largest. -/
def unnorm (r : Fin 64) : EReal := Ideal.exp (score x state W bW U bU v bv r - peak x state W bW U bU v bv)

/-- The softmax's denominator. -/
def total : EReal := ∑ r : Fin 64, unnorm x state W bW U bU v bv r

/-- The attention weight of position `r`. -/
def weight (r : Fin 64) : EReal := Ideal.div (unnorm x state W bW U bU v bv r) (total x state W bW U bU v bv)

/-- Entry `f` of the row's context vector: the positions' features averaged by the weights. -/
def context (f : Fin 2048) : EReal := ∑ r : Fin 64, weight x state W bW U bU v bv r * x r f

end Row

/-- Entry `(b, f)` of the result: the context of batch row `b` of the argument arrays. -/
def attendAt (X : FVec Ideal ⟨3, ![256, 64, 2048]⟩ .f32) (S : FVec Ideal ⟨2, ![256, 512]⟩ .f32)
    (W : FVec Ideal ⟨2, ![2048, 512]⟩ .f32) (bW : FVec Ideal ⟨1, ![512]⟩ .f32)
    (U : FVec Ideal ⟨2, ![512, 512]⟩ .f32) (bU : FVec Ideal ⟨1, ![512]⟩ .f32)
    (v : FVec Ideal ⟨2, ![512, 1]⟩ .f32) (bv : FVec Ideal ⟨1, ![1]⟩ .f32) (b : Fin 256) (f : Fin 2048) : EReal :=
  context (fun r f' => X (ix3 b r f')) (fun h => S (ix2 b h)) (fun f' d => W (ix2 f' d)) (fun d => bW (ix1 d))
    (fun h d => U (ix2 h d)) (fun d => bU (ix1 d)) (fun d => v (ix2 d (0 : Fin 1))) (bv (ix1 (0 : Fin 1))) f

/-- The whole result array as one function of the argument arrays. -/
def attend (X : FVec Ideal ⟨3, ![256, 64, 2048]⟩ .f32) (S : FVec Ideal ⟨2, ![256, 512]⟩ .f32)
    (W : FVec Ideal ⟨2, ![2048, 512]⟩ .f32) (bW : FVec Ideal ⟨1, ![512]⟩ .f32)
    (U : FVec Ideal ⟨2, ![512, 512]⟩ .f32) (bU : FVec Ideal ⟨1, ![512]⟩ .f32)
    (v : FVec Ideal ⟨2, ![512, 1]⟩ .f32) (bv : FVec Ideal ⟨1, ![1]⟩ .f32) : FVec Ideal ⟨2, ![256, 2048]⟩ .f32 :=
  fun i => attendAt X S W bW U bU v bv (i 0) (i 1)

/-- The same over a tile of 16 batch rows: entry `(p, f)` is the context of the tile's row `p`. -/
def attendTileAt (X : FVec Ideal ⟨3, ![16, 64, 2048]⟩ .f32) (S : FVec Ideal ⟨2, ![16, 512]⟩ .f32)
    (W : FVec Ideal ⟨2, ![2048, 512]⟩ .f32) (bW : FVec Ideal ⟨1, ![512]⟩ .f32)
    (U : FVec Ideal ⟨2, ![512, 512]⟩ .f32) (bU : FVec Ideal ⟨1, ![512]⟩ .f32)
    (v : FVec Ideal ⟨2, ![512, 1]⟩ .f32) (bv : FVec Ideal ⟨1, ![1]⟩ .f32) (p : Fin 16) (f : Fin 2048) : EReal :=
  context (fun r f' => X (ix3 p r f')) (fun h => S (ix2 p h)) (fun f' d => W (ix2 f' d)) (fun d => bW (ix1 d))
    (fun h d => U (ix2 h d)) (fun d => bU (ix1 d)) (fun d => v (ix2 d (0 : Fin 1))) (bv (ix1 (0 : Fin 1))) f

/-- A tile's row depends on the arrays only through that batch row: if the tile's features and state are rows
    `b` of the whole arrays, and the tile is handed the same weights entry for entry, its context is the whole
    result's at `b`. -/
theorem attendTileAt_eq_attendAt (Xt : FVec Ideal ⟨3, ![16, 64, 2048]⟩ .f32) (St : FVec Ideal ⟨2, ![16, 512]⟩ .f32)
    (Wt : FVec Ideal ⟨2, ![2048, 512]⟩ .f32) (bWt : FVec Ideal ⟨1, ![512]⟩ .f32)
    (Ut : FVec Ideal ⟨2, ![512, 512]⟩ .f32) (bUt : FVec Ideal ⟨1, ![512]⟩ .f32)
    (vt : FVec Ideal ⟨2, ![512, 1]⟩ .f32) (bvt : FVec Ideal ⟨1, ![1]⟩ .f32)
    (X : FVec Ideal ⟨3, ![256, 64, 2048]⟩ .f32) (S : FVec Ideal ⟨2, ![256, 512]⟩ .f32)
    (W : FVec Ideal ⟨2, ![2048, 512]⟩ .f32) (bW : FVec Ideal ⟨1, ![512]⟩ .f32)
    (U : FVec Ideal ⟨2, ![512, 512]⟩ .f32) (bU : FVec Ideal ⟨1, ![512]⟩ .f32)
    (v : FVec Ideal ⟨2, ![512, 1]⟩ .f32) (bv : FVec Ideal ⟨1, ![1]⟩ .f32) (p : Fin 16) (b : Fin 256) (f : Fin 2048)
    (hX : ∀ r f', Xt (ix3 p r f') = X (ix3 b r f')) (hS : ∀ h, St (ix2 p h) = S (ix2 b h))
    (hW : ∀ f' d, Wt (ix2 f' d) = W (ix2 f' d)) (hbW : ∀ d, bWt (ix1 d) = bW (ix1 d))
    (hU : ∀ h d, Ut (ix2 h d) = U (ix2 h d)) (hbU : ∀ d, bUt (ix1 d) = bU (ix1 d))
    (hv : ∀ d, vt (ix2 d (0 : Fin 1)) = v (ix2 d (0 : Fin 1))) (hbv : bvt (ix1 (0 : Fin 1)) = bv (ix1 (0 : Fin 1))) :
    attendTileAt Xt St Wt bWt Ut bUt vt bvt p f = attendAt X S W bW U bU v bv b f := by
  unfold attendTileAt attendAt
  have e1 : (fun r f' => Xt (ix3 p r f')) = fun r f' => X (ix3 b r f') := funext fun r => funext fun f' => hX r f'
  have e2 : (fun h => St (ix2 p h)) = fun h => S (ix2 b h) := funext hS
  have e3 : (fun f' d => Wt (ix2 f' d)) = fun f' d => W (ix2 f' d) := funext fun f' => funext fun d => hW f' d
  have e4 : (fun d => bWt (ix1 d)) = fun d => bW (ix1 d) := funext hbW
  have e5 : (fun h d => Ut (ix2 h d)) = fun h d => U (ix2 h d) := funext fun h => funext fun d => hU h d
  have e6 : (fun d => bUt (ix1 d)) = fun d => bU (ix1 d) := funext hbU
  have e7 : (fun d => vt (ix2 d (0 : Fin 1))) = fun d => v (ix2 d (0 : Fin 1)) := funext hv
  rw [e1, e2, e3, e4, e5, e6, e7, hbv]

end Cert.Attention

end
-- ==== Proof.TileLayout.lean ====
/-
  The layout operations of a tile of 16 batch rows, read at an index by coordinates.

  The tile's 16 × 64 (batch row, position) pairs are flattened to 1024 rows for the matrix products: pair `(p, r)` is
  row `64 p + r`. A shape cast keeps the row-major position, so the flattened array at row `64 p + r` is the tile at
  `(p, r)`, in both directions, and a column of 1024 scores is the 16 × 64 table of them. The other operations add
  a unit axis (in the middle or at the end) or broadcast along one: each reads the operand at the same remaining
  coordinates, the unit axis at 0.
-/
import Idealize.ShloMosaic.Lib.ValueLayout
import Idealize.ShloMosaic.Lib.Pipeline.Value

namespace Cert.TileLayout

open Idealize.ShloMosaic Idealize.ShloMosaic.ValueIdx

variable {α : Type}

/-- The flattened row of position `r` of the tile's batch row `p`. -/
abbrev flatRow (p : Fin 16) (r : Fin 64) : Fin 1024 := ⟨p.val * 64 + r.val, by omega⟩

/-- The tile `[16, 64, k]` flattened to `[1024, k]` reads, at row `64 p + r`, the tile at `(p, r)`. -/
theorem flatten_apply {k : ℕ} (x : (⟨3, ![16, 64, k]⟩ : Shape).Idx → α)
    (h : (⟨3, ![16, 64, k]⟩ : Shape).ShapeCasts ⟨2, ![1024, k]⟩) (p : Fin 16) (r : Fin 64) (c : Fin k) :
    shapeCast ⟨2, ![1024, k]⟩ x h (ix2 (flatRow p r) c) = x (ix3 p r c) :=
  shapeCast_apply x h _ _ (by
    rw [Shape.rowMajor_val_three, Shape.rowMajor_val_two]
    rfl)

/-- `[1024, k]` cast back to the tile `[16, 64, k]` reads, at `(p, r)`, row `64 p + r`. -/
theorem unflatten_apply {k : ℕ} (x : (⟨2, ![1024, k]⟩ : Shape).Idx → α)
    (h : (⟨2, ![1024, k]⟩ : Shape).ShapeCasts ⟨3, ![16, 64, k]⟩) (p : Fin 16) (r : Fin 64) (c : Fin k) :
    shapeCast ⟨3, ![16, 64, k]⟩ x h (ix3 p r c) = x (ix2 (flatRow p r) c) :=
  shapeCast_apply x h _ _ (by
    rw [Shape.rowMajor_val_three, Shape.rowMajor_val_two]
    rfl)

/-- A column `[1024, 1]` cast to the table `[16, 64]` reads, at `(p, r)`, the column at row `64 p + r`. -/
theorem unflattenColumn_apply (x : (⟨2, ![1024, 1]⟩ : Shape).Idx → α)
    (h : (⟨2, ![1024, 1]⟩ : Shape).ShapeCasts ⟨2, ![16, 64]⟩) (p : Fin 16) (r : Fin 64) :
    shapeCast ⟨2, ![16, 64]⟩ x h (ix2 p r) = x (ix2 (flatRow p r) (0 : Fin 1)) :=
  shapeCast_apply x h _ _ (by
    rw [Shape.rowMajor_val_two, Shape.rowMajor_val_two]
    show (p.val * 64 + r.val) * 1 + 0 = p.val * 64 + r.val
    omega)

/-- `[a, b]` cast to `[a, 1, b]` reads, at `(p, u, d)`, the operand at `(p, d)`. -/
theorem addMiddleUnit_apply {a b : ℕ} (x : (⟨2, ![a, b]⟩ : Shape).Idx → α)
    (h : (⟨2, ![a, b]⟩ : Shape).ShapeCasts ⟨3, ![a, 1, b]⟩) (p : Fin a) (u : Fin 1) (d : Fin b) :
    shapeCast ⟨3, ![a, 1, b]⟩ x h (ix3 p u d) = x (ix2 p d) :=
  shapeCast_apply x h _ _ (by
    have hu : u.val = 0 := by omega
    rw [Shape.rowMajor_val_two, Shape.rowMajor_val_three]
    show p.val * b + d.val = (p.val * 1 + u.val) * b + d.val
    rw [hu, Nat.mul_one, Nat.add_zero])

/-- `[a, 1, b]` broadcast to `[a, n, b]` reads, at `(p, r, d)`, the operand at `(p, 0, d)`. -/
theorem broadcastMiddle_apply {a n b : ℕ} (x : (⟨3, ![a, 1, b]⟩ : Shape).Idx → α)
    (h : (⟨3, ![a, 1, b]⟩ : Shape).Broadcasts ⟨3, ![a, n, b]⟩) (p : Fin a) (r : Fin n) (d : Fin b) :
    broadcastTo ⟨3, ![a, n, b]⟩ x h (ix3 p r d) = x (ix3 p (0 : Fin 1) d) := by
  refine broadcastTo_apply x h (ix3 p r d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if b = 1 then 0 else d.val
    split
    · have := d.isLt; omega
    · rfl

/-- `[a, b]` cast to `[a, b, 1]` reads, at `(p, r, u)`, the operand at `(p, r)`. -/
theorem addLastUnit_apply {a b : ℕ} (x : (⟨2, ![a, b]⟩ : Shape).Idx → α)
    (h : (⟨2, ![a, b]⟩ : Shape).ShapeCasts ⟨3, ![a, b, 1]⟩) (p : Fin a) (r : Fin b) (u : Fin 1) :
    shapeCast ⟨3, ![a, b, 1]⟩ x h (ix3 p r u) = x (ix2 p r) :=
  shapeCast_apply x h _ _ (by
    have hu : u.val = 0 := by omega
    rw [Shape.rowMajor_val_two, Shape.rowMajor_val_three]
    show p.val * b + r.val = (p.val * b + r.val) * 1 + u.val
    rw [hu, Nat.mul_one, Nat.add_zero])

/-- `[a, b, 1]` broadcast to `[a, b, n]` reads, at `(p, r, f)`, the operand at `(p, r, 0)`. -/
theorem broadcastLast_apply {a b n : ℕ} (x : (⟨3, ![a, b, 1]⟩ : Shape).Idx → α)
    (h : (⟨3, ![a, b, 1]⟩ : Shape).Broadcasts ⟨3, ![a, b, n]⟩) (p : Fin a) (r : Fin b) (f : Fin n) :
    broadcastTo ⟨3, ![a, b, n]⟩ x h (ix3 p r f) = x (ix3 p r (0 : Fin 1)) := by
  refine broadcastTo_apply x h (ix3 p r f) (ix3 p r (0 : Fin 1)) fun ax => ?_
  match ax with
  | ⟨0, _⟩ =>
    show p.val = if a = 1 then 0 else p.val
    split
    · have := p.isLt; omega
    · rfl
  | ⟨1, _⟩ =>
    show r.val = if b = 1 then 0 else r.val
    split
    · have := r.isLt; omega
    · rfl
  | ⟨2, _⟩ => rfl

end Cert.TileLayout
-- ==== Proof.TileMatmul.lean ====
/-
  The body's three matrix products, read at an index at the exact instance: each is a plain [n, K] × [K, m] product
  into a zero accumulator, so its entry `(n, j)` is `Σ_k left (n, k) · right (k, j)` over the one contracted
  coordinate. (Each proof re-indexes the contraction's sum through its one coordinate and names the two operand
  indices by their coordinates.)
-/
import proofs.«141212_j84464826843938_1_alg».proof.Proof.Gen.KernelIdeal
import Idealize.ShloMosaic.PureOps.Ideal.Laws
import Idealize.ShloMosaic.Lib.ValueIdx

noncomputable section

open scoped BigOperators

namespace Cert.KernelIdeal.TileMatmul

open Cert.KernelIdeal Cert.KernelIdeal.Gen Idealize.ShloMosaic Idealize.ShloMosaic.ValueIdx

/-! ## The features' projection: [1024, 2048] × [2048, 512] -/

theorem lhsF_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
theorem lhsF_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
theorem rhsF_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
theorem rhsF_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- Entry `(n, j)` of the product into a zero accumulator is the sum over the contracted coordinate `k` of the left
    operand at `(n, k)` times the right operand at `(k, j)`. -/
theorem matmulF_apply (l : FVec Ideal S1024x2048 .bf16) (r : FVec Ideal S2048x512 .bf16) (n : Fin 1024) (j : Fin 512) :
    matmul dot_S1024x2048_S2048x512_S1024x512_1_0_0_1_n_n none l r (constant (F := Ideal) S1024x512 .f32 0x00000000#32) (ix2 n j)
      = ∑ k : Fin 2048, l (ix2 n k) * r (ix2 k j) := by
  simp only [matmul]
  rw [Ideal.matmul_constant_zero_apply, ← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 n j) ((contrEquiv1 dot_S1024x2048_S2048x512_S1024x512_1_0_0_1_n_n 2048 rfl rfl).symm k) = ix2 n k := funext fun a => Fin.ext (by
    match a with
    | ⟨0, _⟩ => exact lhsF_0 _ _
    | ⟨1, _⟩ => exact (lhsF_1 _ _).trans hk)
  have er : dot_S1024x2048_S2048x512_S1024x512_1_0_0_1_n_n.rhsIdx (ix2 n j) ((contrEquiv1 dot_S1024x2048_S2048x512_S1024x512_1_0_0_1_n_n 2048 rfl rfl).symm k) = ix2 k j := funext fun a => Fin.ext (by
    match a with
    | ⟨0, _⟩ => exact (rhsF_0 _ _).trans hk
    | ⟨1, _⟩ => exact rhsF_1 _ _)
  rw [el, er]

/-! ## The previous state's projection: [16, 512] × [512, 512] -/

theorem lhsQ_0 (i : S16x512.Idx) (q : dot_S16x512_S512x512_S16x512_1_0_0_1_n_n.contr.Idx) :
    (dot_S16x512_S512x512_S16x512_1_0_0_1_n_n.lhsIdx i q 0).val = (i 0).val := by
  unfold DotDims.lhsIdx
  rw [dif_neg (show ¬(0 : Fin S16x512.rank) ∈ dot_S16x512_S512x512_S16x512_1_0_0_1_n_n.lhsBatch by decide), dif_pos (show (0 : Fin S16x512.rank) ∈ dot_S16x512_S512x512_S16x512_1_0_0_1_n_n.lhsNonContracting by decide)]
  rfl
theorem lhsQ_1 (i : S16x512.Idx) (q : dot_S16x512_S512x512_S16x512_1_0_0_1_n_n.contr.Idx) :
    (dot_S16x512_S512x512_S16x512_1_0_0_1_n_n.lhsIdx i q 1).val = (q ⟨0, by decide⟩).val :=
  dot_S16x512_S512x512_S16x512_1_0_0_1_n_n.lhsIdx_val_of_single rfl i q
theorem rhsQ_0 (i : S16x512.Idx) (q : dot_S16x512_S512x512_S16x512_1_0_0_1_n_n.contr.Idx) :
    (dot_S16x512_S512x512_S16x512_1_0_0_1_n_n.rhsIdx i q 0).val = (q ⟨0, by decide⟩).val :=
  dot_S16x512_S512x512_S16x512_1_0_0_1_n_n.rhsIdx_val_of_single rfl i q
theorem rhsQ_1 (i : S16x512.Idx) (q : dot_S16x512_S512x512_S16x512_1_0_0_1_n_n.contr.Idx) :
    (dot_S16x512_S512x512_S16x512_1_0_0_1_n_n.rhsIdx i q 1).val = (i 1).val := by
  unfold DotDims.rhsIdx
  rw [dif_neg (show ¬(1 : Fin S512x512.rank) ∈ dot_S16x512_S512x512_S16x512_1_0_0_1_n_n.rhsBatch by decide), dif_pos (show (1 : Fin S512x512.rank) ∈ dot_S16x512_S512x512_S16x512_1_0_0_1_n_n.rhsNonContracting by decide)]
  rfl

/-- Entry `(n, j)` of the product into a zero accumulator is the sum over the contracted coordinate `k` of the left
    operand at `(n, k)` times the right operand at `(k, j)`. -/
theorem matmulQ_apply (l : FVec Ideal S16x512 .f32) (r : FVec Ideal S512x512 .f32) (n : Fin 16) (j : Fin 512) :
    matmul dot_S16x512_S512x512_S16x512_1_0_0_1_n_n none l r (constant (F := Ideal) S16x512 .f32 0x00000000#32) (ix2 n j)
      = ∑ k : Fin 512, l (ix2 n k) * r (ix2 k j) := by
  simp only [matmul]
  rw [Ideal.matmul_constant_zero_apply, ← Equiv.sum_comp (contrEquiv1 dot_S16x512_S512x512_S16x512_1_0_0_1_n_n 512 rfl rfl).symm]
  refine Finset.sum_congr rfl fun k _ => ?_
  have hk := contrEquiv1_symm_val dot_S16x512_S512x512_S16x512_1_0_0_1_n_n 512 rfl rfl k
  have el : dot_S16x512_S512x512_S16x512_1_0_0_1_n_n.lhsIdx (ix2 n j) ((contrEquiv1 dot_S16x512_S512x512_S16x512_1_0_0_1_n_n 512 rfl rfl).symm k) = ix2 n k := funext fun a => Fin.ext (by
    match a with
    | ⟨0, _⟩ => exact lhsQ_0 _ _
    | ⟨1, _⟩ => exact (lhsQ_1 _ _).trans hk)
  have er : dot_S16x512_S512x512_S16x512_1_0_0_1_n_n.rhsIdx (ix2 n j) ((contrEquiv1 dot_S16x512_S512x512_S16x512_1_0_0_1_n_n 512 rfl rfl).symm k) = ix2 k j := funext fun a => Fin.ext (by
    match a with
    | ⟨0, _⟩ => exact (rhsQ_0 _ _).trans hk
    | ⟨1, _⟩ => exact rhsQ_1 _ _)
  rw [el, er]

/-! ## The scores: [1024, 512] × [512, 1] -/

theorem lhsS_0 (i : S1024x1.Idx) (q : dot_S1024x512_S512x1_S1024x1_1_0_0_1_n_n.contr.Idx) :
    (dot_S1024x512_S512x1_S1024x1_1_0_0_1_n_n.lhsIdx i q 0).val = (i 0).val := by
  unfold DotDims.lhsIdx
  rw [dif_neg (show ¬(0 : Fin S1024x512.rank) ∈ dot_S1024x512_S512x1_S1024x1_1_0_0_1_n_n.lhsBatch by decide), dif_pos (show (0 : Fin S1024x512.rank) ∈ dot_S1024x512_S512x1_S1024x1_1_0_0_1_n_n.lhsNonContracting by decide)]
  rfl
theorem lhsS_1 (i : S1024x1.Idx) (q : dot_S1024x512_S512x1_S1024x1_1_0_0_1_n_n.contr.Idx) :
    (dot_S1024x512_S512x1_S1024x1_1_0_0_1_n_n.lhsIdx i q 1).val = (q ⟨0, by decide⟩).val :=
  dot_S1024x512_S512x1_S1024x1_1_0_0_1_n_n.lhsIdx_val_of_single rfl i q
theorem rhsS_0 (i : S1024x1.Idx) (q : dot_S1024x512_S512x1_S1024x1_1_0_0_1_n_n.contr.Idx) :
    (dot_S1024x512_S512x1_S1024x1_1_0_0_1_n_n.rhsIdx i q 0).val = (q ⟨0, by decide⟩).val :=
  dot_S1024x512_S512x1_S1024x1_1_0_0_1_n_n.rhsIdx_val_of_single rfl i q
theorem rhsS_1 (i : S1024x1.Idx) (q : dot_S1024x512_S512x1_S1024x1_1_0_0_1_n_n.contr.Idx) :
    (dot_S1024x512_S512x1_S1024x1_1_0_0_1_n_n.rhsIdx i q 1).val = (i 1).val := by
  unfold DotDims.rhsIdx
  rw [dif_neg (show ¬(1 : Fin S512x1.rank) ∈ dot_S1024x512_S512x1_S1024x1_1_0_0_1_n_n.rhsBatch by decide), dif_pos (show (1 : Fin S512x1.rank) ∈ dot_S1024x512_S512x1_S1024x1_1_0_0_1_n_n.rhsNonContracting by decide)]
  rfl

/-- Entry `(n, j)` of the product into a zero accumulator is the sum over the contracted coordinate `k` of the left
    operand at `(n, k)` times the right operand at `(k, j)`. -/
theorem matmulS_apply (l : FVec Ideal S1024x512 .f32) (r : FVec Ideal S512x1 .f32) (n : Fin 1024) (j : Fin 1) :
    matmul dot_S1024x512_S512x1_S1024x1_1_0_0_1_n_n none l r (constant (F := Ideal) S1024x1 .f32 0x00000000#32) (ix2 n j)
      = ∑ k : Fin 512, l (ix2 n k) * r (ix2 k j) := by
  simp only [matmul]
  rw [Ideal.matmul_constant_zero_apply, ← Equiv.sum_comp (contrEquiv1 dot_S1024x512_S512x1_S1024x1_1_0_0_1_n_n 512 rfl rfl).symm]
  refine Finset.sum_congr rfl fun k _ => ?_
  have hk := contrEquiv1_symm_val dot_S1024x512_S512x1_S1024x1_1_0_0_1_n_n 512 rfl rfl k
  have el : dot_S1024x512_S512x1_S1024x1_1_0_0_1_n_n.lhsIdx (ix2 n j) ((contrEquiv1 dot_S1024x512_S512x1_S1024x1_1_0_0_1_n_n 512 rfl rfl).symm k) = ix2 n k := funext fun a => Fin.ext (by
    match a with
    | ⟨0, _⟩ => exact lhsS_0 _ _
    | ⟨1, _⟩ => exact (lhsS_1 _ _).trans hk)
  have er : dot_S1024x512_S512x1_S1024x1_1_0_0_1_n_n.rhsIdx (ix2 n j) ((contrEquiv1 dot_S1024x512_S512x1_S1024x1_1_0_0_1_n_n 512 rfl rfl).symm k) = ix2 k j := funext fun a => Fin.ext (by
    match a with
    | ⟨0, _⟩ => exact (rhsS_0 _ _).trans hk
    | ⟨1, _⟩ => exact rhsS_1 _ _)
  rw [el, er]

end Cert.KernelIdeal.TileMatmul

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.TilePayload.lean ====
/-
  What the body computes for a tile of 16 batch rows, read entry by entry at the exact instance.

  The body's arithmetic is named here stage by stage — the two projections, the hidden units, the table of scores,
  each row's largest score, the shifted exponentials, their row sums, the weighted sum of the features — and each
  stage is read at an index through its layout operations: the 1024-row flattening used for the matrix products
  puts (batch row p, position r) at row 64 p + r, and the unit-axis casts and broadcasts carry a row's value to
  every position of that row. Entry `(p, f)` of what the body stores is then the context vector of the tile's batch
  row `p` at feature `f`: `attendTileAt`. The stages compose to the body's own payload terms by unfolding.
-/
import proofs.«141212_j84464826843938_1_alg».proof.Proof.Gen.KernelIdeal.Skeleton
import proofs.«141212_j84464826843938_1_alg».proof.Proof.AttentionSpec
import proofs.«141212_j84464826843938_1_alg».proof.Proof.TileLayout
import proofs.«141212_j84464826843938_1_alg».proof.Proof.TileMatmul
import proofs.«141212_j84464826843938_1_alg».proof.Proof.LibColumnLayout
import Idealize.ShloMosaic.PureOps.Ideal.Laws
import Idealize.ShloMosaic.Lib.ValueLayout

noncomputable section

open scoped BigOperators

namespace Cert.KernelIdeal.Tile

open Cert.KernelIdeal Cert.KernelIdeal.Gen Cert.KernelIdeal.TileMatmul Cert.TileLayout Cert.Attention
open Idealize.ShloMosaic Idealize.ShloMosaic.ValueIdx

/-! ## Two pointwise functions and two reductions at an index -/

theorem tanh_apply {s : Shape} {φ : FTy} (a : FVec Ideal s φ) (i : s.Idx) : tanh a i = Ideal.tanh (a i) := rfl
theorem exp_apply {s : Shape} {φ : FTy} (a : FVec Ideal s φ) (i : s.Idx) : exp a i = Ideal.exp (a i) := rfl

/-- The largest entry of row `p` of a [16, 64] table, folded from -∞. -/
theorem rowMax_apply (s : FVec Ideal S16x64 .f32) (h : S16x64.Reduces [1] S16) (p : Fin 16) :
    multiReduction .maximumf [1] S16 s 0xFF800000#32 h (.inl rfl) rfl (ix1 p)
      = (Finset.univ : Finset (Fin 64)).fold max negInf (fun r => s (ix2 p r)) :=
  (Ideal.multiReduction_maximumf_single s _ h (.inl rfl) rfl (ix1 p)).trans
    (congrArg (fun g : Fin 64 → EReal => Finset.fold max negInf g Finset.univ)
      (funext fun r => congrArg s (funext fun a => by match a with | ⟨0, _⟩ => rfl | ⟨1, _⟩ => rfl)))

/-- The sum of row `p` of a [16, 64] table. -/
theorem rowSum_apply (s : FVec Ideal S16x64 .f32) (h : S16x64.Reduces [1] S16) (p : Fin 16) :
    multiReduction .add [1] S16 s 0x00000000#32 h (.inl rfl) rfl (ix1 p) = ∑ r : Fin 64, s (ix2 p r) :=
  (Ideal.multiReduction_add_single s _ h (.inl rfl) rfl (ix1 p)).trans
    (Finset.sum_congr rfl fun r _ => congrArg s (funext fun a => by match a with | ⟨0, _⟩ => rfl | ⟨1, _⟩ => rfl))

/-- The sum over the positions of a [16, 64, 2048] array, at batch row `p` and feature `f`. -/
theorem positionSum_apply (s : FVec Ideal S16x64x2048 .f32) (h : S16x64x2048.Reduces [1] S16x2048) (p : Fin 16) (f : Fin 2048) :
    multiReduction .add [1] S16x2048 s 0x00000000#32 h (.inl rfl) rfl (ix2 p f) = ∑ r : Fin 64, s (ix3 p r f) :=
  (Ideal.multiReduction_add_single s _ h (.inl rfl) rfl (ix2 p f)).trans
    (Finset.sum_congr rfl fun r _ => congrArg s (funext fun a => by match a with | ⟨0, _⟩ => rfl | ⟨1, _⟩ => rfl | ⟨2, _⟩ => rfl))

/-! ## The stages -/

section Stages

variable (v0 : FVec Ideal S16x64x2048 .f32) (v2 : FVec Ideal S2048x512 .f32) (v6 : FVec Ideal S512 .f32)
  (v11 : FVec Ideal S16x512 .f32) (v12 : FVec Ideal S512x512 .f32) (v14 : FVec Ideal S512 .f32)
  (v23 : FVec Ideal S512x1 .f32) (v25 : FVec Ideal S1 .f32)

/-- The features projected into the hidden units, with the bias, as a [16, 64, 512] table. -/
def featProj : FVec Ideal S16x64x512 .f32 :=
  shapeCast S16x64x512 (addf
    (matmul dot_S1024x2048_S2048x512_S1024x512_1_0_0_1_n_n none (truncf .bf16 (shapeCast S1024x2048 v0) (by decide))
      (truncf .bf16 v2 (by decide)) (constant (F := Ideal) S1024x512 .f32 0x00000000#32))
    (broadcastTo S1024x512 (shapeCast S1x512 v6)))

theorem featProj_apply (p : Fin 16) (r : Fin 64) (d : Fin 512) :
    featProj v0 v2 v6 (ix3 p r d) = (∑ f : Fin 2048, v0 (ix3 p r f) * v2 (ix2 f d)) + v6 (ix1 d) := by
  unfold featProj
  rw [unflatten_apply, addf_apply, matmulF_apply, broadcastTo_1b_ab_apply, shapeCast_a_1a_apply]
  simp only [truncf_apply, flatten_apply]

/-- The previous state projected into the hidden units, with the bias, as a [16, 512] table. -/
def stateProj : FVec Ideal S16x512 .f32 :=
  addf (matmul dot_S16x512_S512x512_S16x512_1_0_0_1_n_n none v11 v12 (constant (F := Ideal) S16x512 .f32 0x00000000#32))
    (broadcastTo S16x512 (shapeCast S1x512 v14))

theorem stateProj_apply (p : Fin 16) (d : Fin 512) :
    stateProj v11 v12 v14 (ix2 p d) = (∑ h : Fin 512, v11 (ix2 p h) * v12 (ix2 h d)) + v14 (ix1 d) := by
  unfold stateProj
  rw [addf_apply, matmulQ_apply, broadcastTo_1b_ab_apply, shapeCast_a_1a_apply]

/-- The hidden units: a batch row's state projection is added at every position of the row. -/
def hiddenT : FVec Ideal S16x64x512 .f32 :=
  tanh (addf (featProj v0 v2 v6) (broadcastTo S16x64x512 (shapeCast S16x1x512 (stateProj v11 v12 v14))))

theorem hiddenT_apply (p : Fin 16) (r : Fin 64) (d : Fin 512) :
    hiddenT v0 v2 v6 v11 v12 v14 (ix3 p r d)
      = Attention.hidden (fun r f => v0 (ix3 p r f)) (fun h => v11 (ix2 p h)) (fun f d => v2 (ix2 f d)) (fun d => v6 (ix1 d))
          (fun h d => v12 (ix2 h d)) (fun d => v14 (ix1 d)) r d := by
  unfold hiddenT Attention.hidden Attention.query
  rw [tanh_apply, addf_apply, featProj_apply, broadcastMiddle_apply, addMiddleUnit_apply, stateProj_apply]

/-- The table of scores [16, 64]. -/
def scoreT : FVec Ideal S16x64 .f32 :=
  shapeCast S16x64 (addf
    (matmul dot_S1024x512_S512x1_S1024x1_1_0_0_1_n_n none (shapeCast S1024x512 (hiddenT v0 v2 v6 v11 v12 v14)) v23
      (constant (F := Ideal) S1024x1 .f32 0x00000000#32))
    (broadcastTo S1024x1 (shapeCast S1x1 v25)))

theorem scoreT_apply (p : Fin 16) (r : Fin 64) :
    scoreT v0 v2 v6 v11 v12 v14 v23 v25 (ix2 p r)
      = Attention.score (fun r f => v0 (ix3 p r f)) (fun h => v11 (ix2 p h)) (fun f d => v2 (ix2 f d)) (fun d => v6 (ix1 d))
          (fun h d => v12 (ix2 h d)) (fun d => v14 (ix1 d)) (fun d => v23 (ix2 d (0 : Fin 1))) (v25 (ix1 (0 : Fin 1))) r := by
  unfold scoreT Attention.score
  rw [unflattenColumn_apply, addf_apply, matmulS_apply, broadcastTo_1b_ab_apply, shapeCast_a_1a_apply]
  simp only [flatten_apply, hiddenT_apply]

end Stages

/-- Each row's largest score: the row's maximum folded from -∞, once more against -∞. -/
def peakT (s : FVec Ideal S16x64 .f32) : FVec Ideal S16 .f32 :=
  maximumf (broadcast S16 (Scalar.ofBits (F := Ideal) .f32 0xFF800000#32))
    (multiReduction .maximumf [1] S16 s 0xFF800000#32 (by decide) (.inl rfl) rfl)

theorem peakT_apply (s : FVec Ideal S16x64 .f32) (p : Fin 16) :
    peakT s (ix1 p) = max negInf ((Finset.univ : Finset (Fin 64)).fold max negInf (fun r => s (ix2 p r))) := by
  unfold peakT
  rw [maximumf_apply, rowMax_apply]
  rfl

/-- The exponentials of the scores shifted by their row's largest. -/
def unnormT (s : FVec Ideal S16x64 .f32) : FVec Ideal S16x64 .f32 :=
  exp (subf s (broadcastTo S16x64 (shapeCast S16x1 (peakT s))))

theorem unnormT_apply (s : FVec Ideal S16x64 .f32) (p : Fin 16) (r : Fin 64) :
    unnormT s (ix2 p r) = Ideal.exp (s (ix2 p r) - peakT s (ix1 p)) := by
  unfold unnormT
  rw [exp_apply, subf_apply, PhysLoss.broadcastTo_a1_ab_apply, PhysLoss.shapeCast_a_a1_apply]

/-- The row sums of a table, as a column [16, 1]. -/
def totalT (e : FVec Ideal S16x64 .f32) : FVec Ideal S16x1 .f32 :=
  shapeCast S16x1 (multiReduction .add [1] S16 e 0x00000000#32 (by decide) (.inl rfl) rfl)

theorem totalT_apply (e : FVec Ideal S16x64 .f32) (p : Fin 16) :
    totalT e (ix2 p (0 : Fin 1)) = ∑ r : Fin 64, e (ix2 p r) := by
  unfold totalT
  rw [PhysLoss.shapeCast_a_a1_apply, rowSum_apply]

/-- The features averaged over the positions by the normalised table. -/
def contextT (v0 : FVec Ideal S16x64x2048 .f32) (e : FVec Ideal S16x64 .f32) (z : FVec Ideal S16x1 .f32) : FVec Ideal S16x2048 .f32 :=
  multiReduction .add [1] S16x2048 (mulf (broadcastTo S16x64x2048 (shapeCast S16x64x1 (divf e (broadcastTo S16x64 z)))) v0)
    0x00000000#32 (by decide) (.inl rfl) rfl

theorem contextT_apply (v0 : FVec Ideal S16x64x2048 .f32) (e : FVec Ideal S16x64 .f32) (z : FVec Ideal S16x1 .f32) (p : Fin 16) (f : Fin 2048) :
    contextT v0 e z (ix2 p f) = ∑ r : Fin 64, Ideal.div (e (ix2 p r)) (z (ix2 p (0 : Fin 1))) * v0 (ix3 p r f) := by
  unfold contextT
  rw [positionSum_apply]
  refine Finset.sum_congr rfl fun r _ => ?_
  rw [mulf_apply, broadcastLast_apply, addLastUnit_apply, divf_apply, PhysLoss.broadcastTo_a1_ab_apply]

/-! ## The body's payloads are these stages -/

section Payload

variable (v0 : FVec Ideal S16x64x2048 .f32) (v2 : FVec Ideal S2048x512 .f32) (v6 : FVec Ideal S512 .f32)
  (v11 : FVec Ideal S16x512 .f32) (v12 : FVec Ideal S512x512 .f32) (v14 : FVec Ideal S512 .f32)
  (v23 : FVec Ideal S512x1 .f32) (v25 : FVec Ideal S1 .f32)

theorem pay2_eq : k0_pay2 (F := Ideal) v0 v2 v6 v11 v12 v14 v23 v25 = unnormT (scoreT v0 v2 v6 v11 v12 v14 v23 v25) := rfl

theorem pay3_eq : k0_pay3 (F := Ideal) v0 v2 v6 v11 v12 v14 v23 v25 = totalT (k0_pay2 (F := Ideal) v0 v2 v6 v11 v12 v14 v23 v25) := rfl

theorem pay1_eq (e : FVec Ideal S16x64 .f32) (z : FVec Ideal S16x1 .f32) : k0_pay1 (F := Ideal) v0 e z = contextT v0 e z := rfl

/-- The shifted exponential of the score of position `r` of the tile's batch row `p`. -/
theorem pay2_apply (p : Fin 16) (r : Fin 64) :
    k0_pay2 (F := Ideal) v0 v2 v6 v11 v12 v14 v23 v25 (ix2 p r)
      = Attention.unnorm (fun r f => v0 (ix3 p r f)) (fun h => v11 (ix2 p h)) (fun f d => v2 (ix2 f d)) (fun d => v6 (ix1 d))
          (fun h d => v12 (ix2 h d)) (fun d => v14 (ix1 d)) (fun d => v23 (ix2 d (0 : Fin 1))) (v25 (ix1 (0 : Fin 1))) r := by
  rw [pay2_eq, unnormT_apply, peakT_apply]
  unfold Attention.unnorm Attention.peak
  simp only [scoreT_apply]

/-- WHAT THE BODY STORES at `(p, f)`: the context vector of the tile's batch row `p` at feature `f`. -/
theorem tile_apply (p : Fin 16) (f : Fin 2048) :
    k0_pay1 (F := Ideal) v0 (k0_pay2 (F := Ideal) v0 v2 v6 v11 v12 v14 v23 v25) (k0_pay3 (F := Ideal) v0 v2 v6 v11 v12 v14 v23 v25) (ix2 p f)
      = attendTileAt v0 v11 v2 v6 v12 v14 v23 v25 p f := by
  rw [pay1_eq, contextT_apply, pay3_eq, totalT_apply]
  unfold Attention.attendTileAt Attention.context Attention.weight Attention.total
  simp only [pay2_apply]

end Payload

end Cert.KernelIdeal.Tile

end
-- ==== Proof.TilesToArray.lean ====
/-
  From the tiles to the whole result array.

  The grid has 16 points; point `t` is handed the features and the previous state of batch rows `16 t … 16 t + 15`
  (blocks of 16 rows at block index `t`), every weight array whole (block index 0), and writes back rows
  `16 t … 16 t + 15` of the result. What it writes back is the body's stored value of its input blocks, which entry by
  entry is the context vector of the tile's batch row; a tile's row `p` is the whole arrays' row `16 t + p`, so the
  block written back is block `t` of the whole result `attend` of the argument arrays. Every row of the result lies
  in exactly the block of the point `row / 16`, so the blocks cover the array and it ends holding `attend`.
-/
import proofs.«141212_j84464826843938_1_alg».proof.Proof.Gen.KernelIdeal.Value
import proofs.«141212_j84464826843938_1_alg».proof.Proof.TilePayload
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.Attention Idealize.ShloMosaic.ValueIdx

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The whole result array of core `c`'s argument arrays as launched. -/
abbrev result (c : Dev nD) : Buf (Elt Ideal) ((c : Thread nD τ).loc main_v0) :=
  attend (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The block indices over the grid: the features, the state and the result move with the point along the batch
    axis; every weight array is one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-! ## Each input block as rows of its argument array -/

/-- The features' block at point `t`: tile row `p` is batch row `16 t + p`. -/
theorem features_block (c : Dev nD) (t : Fin cfg0.N) (p : Fin 16) (r : Fin 64) (f : Fin 2048) (b : Fin 256)
    (hb : b.val = t.val * 16 + p.val) :
    (iblk m c 0 t : FVec Ideal S16x64x2048 .f32) (ix3 p r f) = ((m ((c : Thread nD τ).loc main_arg0)) : FVec Ideal S256x64x2048 .f32) (ix3 b r f) := by
  obtain ⟨e0, e1, e2, -⟩ := idx_facts t
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 3) * 16 + 1 * p.val = b.val; rw [e0, hb]; omega
  | ⟨1, _⟩ => show win0_0.index t (1 : Fin 3) * 64 + 1 * r.val = r.val; rw [e1]; omega
  | ⟨2, _⟩ => show win0_0.index t (2 : Fin 3) * 2048 + 1 * f.val = f.val; rw [e2]; omega

/-- The previous state's block at point `t`: tile row `p` is batch row `16 t + p`. -/
theorem state_block (c : Dev nD) (t : Fin cfg0.N) (p : Fin 16) (h : Fin 512) (b : Fin 256)
    (hb : b.val = t.val * 16 + p.val) :
    (iblk m c 1 t : FVec Ideal S16x512 .f32) (ix2 p h) = ((m ((c : Thread nD τ).loc main_arg1)) : FVec Ideal S256x512 .f32) (ix2 b h) := by
  obtain ⟨-, -, -, e0, e1, -⟩ := idx_facts t
  unfold iblk
  rw [View.read_apply]
  show m ((c : Thread nD τ).loc main_arg1) _ = m ((c : Thread nD τ).loc main_arg1) _
  congr 1
  funext a
  apply Fin.ext
  match a with
  | ⟨0, _⟩ => show win0_1.index t (0 : Fin 2) * 16 + 1 * p.val = b.val; rw [e0, hb]; omega
  | ⟨1, _⟩ => show win0_1.index t (1 : Fin 2) * 512 + 1 * h.val = h.val; rw [e1]; omega

/-- The features' projection matrix is handed whole to every point. -/
theorem W_block (c : Dev nD) (t : Fin cfg0.N) (f : Fin 2048) (d : Fin 512) :
    (iblk m c 2 t : FVec Ideal S2048x512 .f32) (ix2 f d) = ((m ((c : Thread nD τ).loc main_arg2)) : FVec Ideal S2048x512 .f32) (ix2 f d) := by
  obtain ⟨-, -, -, -, -, e0, e1, -⟩ := idx_facts t
  unfold iblk
  rw [View.read_apply]
  show m ((c : Thread nD τ).loc main_arg2) _ = m ((c : Thread nD τ).loc main_arg2) _
  congr 1
  funext a
  apply Fin.ext
  match a with
  | ⟨0, _⟩ => show win0_2.index t (0 : Fin 2) * 2048 + 1 * f.val = f.val; rw [e0]; omega
  | ⟨1, _⟩ => show win0_2.index t (1 : Fin 2) * 512 + 1 * d.val = d.val; rw [e1]; omega

/-- Its bias likewise. -/
theorem bW_block (c : Dev nD) (t : Fin cfg0.N) (d : Fin 512) :
    (iblk m c 3 t : FVec Ideal S512 .f32) (ix1 d) = ((m ((c : Thread nD τ).loc main_arg3)) : FVec Ideal S512 .f32) (ix1 d) := by
  obtain ⟨-, -, -, -, -, -, -, e0, -⟩ := idx_facts t
  unfold iblk
  rw [View.read_apply]
  show m ((c : Thread nD τ).loc main_arg3) _ = m ((c : Thread nD τ).loc main_arg3) _
  congr 1
  funext a
  apply Fin.ext
  match a with
  | ⟨0, _⟩ => show win0_3.index t (0 : Fin 1) * 512 + 1 * d.val = d.val; rw [e0]; omega

/-- The state's projection matrix likewise. -/
theorem U_block (c : Dev nD) (t : Fin cfg0.N) (h : Fin 512) (d : Fin 512) :
    (iblk m c 4 t : FVec Ideal S512x512 .f32) (ix2 h d) = ((m ((c : Thread nD τ).loc main_arg4)) : FVec Ideal S512x512 .f32) (ix2 h d) := by
  obtain ⟨-, -, -, -, -, -, -, -, e0, e1, -⟩ := idx_facts t
  unfold iblk
  rw [View.read_apply]
  show m ((c : Thread nD τ).loc main_arg4) _ = m ((c : Thread nD τ).loc main_arg4) _
  congr 1
  funext a
  apply Fin.ext
  match a with
  | ⟨0, _⟩ => show win0_4.index t (0 : Fin 2) * 512 + 1 * h.val = h.val; rw [e0]; omega
  | ⟨1, _⟩ => show win0_4.index t (1 : Fin 2) * 512 + 1 * d.val = d.val; rw [e1]; omega

/-- Its bias likewise. -/
theorem bU_block (c : Dev nD) (t : Fin cfg0.N) (d : Fin 512) :
    (iblk m c 5 t : FVec Ideal S512 .f32) (ix1 d) = ((m ((c : Thread nD τ).loc main_arg5)) : FVec Ideal S512 .f32) (ix1 d) := by
  obtain ⟨-, -, -, -, -, -, -, -, -, -, e0, -⟩ := idx_facts t
  unfold iblk
  rw [View.read_apply]
  show m ((c : Thread nD τ).loc main_arg5) _ = m ((c : Thread nD τ).loc main_arg5) _
  congr 1
  funext a
  apply Fin.ext
  match a with
  | ⟨0, _⟩ => show win0_5.index t (0 : Fin 1) * 512 + 1 * d.val = d.val; rw [e0]; omega

/-- The scoring vector likewise. -/
theorem v_block (c : Dev nD) (t : Fin cfg0.N) (d : Fin 512) (u : Fin 1) :
    (iblk m c 6 t : FVec Ideal S512x1 .f32) (ix2 d u) = ((m ((c : Thread nD τ).loc main_arg6)) : FVec Ideal S512x1 .f32) (ix2 d u) := by
  obtain ⟨-, -, -, -, -, -, -, -, -, -, -, e0, e1, -⟩ := idx_facts t
  unfold iblk
  rw [View.read_apply]
  show m ((c : Thread nD τ).loc main_arg6) _ = m ((c : Thread nD τ).loc main_arg6) _
  congr 1
  funext a
  apply Fin.ext
  match a with
  | ⟨0, _⟩ => show win0_6.index t (0 : Fin 2) * 512 + 1 * d.val = d.val; rw [e0]; omega
  | ⟨1, _⟩ => show win0_6.index t (1 : Fin 2) * 1 + 1 * u.val = u.val; rw [e1]; omega

/-- Its bias likewise. -/
theorem bv_block (c : Dev nD) (t : Fin cfg0.N) (u : Fin 1) :
    (iblk m c 7 t : FVec Ideal S1 .f32) (ix1 u) = ((m ((c : Thread nD τ).loc main_arg7)) : FVec Ideal S1 .f32) (ix1 u) := by
  obtain ⟨-, -, -, -, -, -, -, -, -, -, -, -, -, e0, -⟩ := idx_facts t
  unfold iblk
  rw [View.read_apply]
  show m ((c : Thread nD τ).loc main_arg7) _ = m ((c : Thread nD τ).loc main_arg7) _
  congr 1
  funext a
  apply Fin.ext
  match a with
  | ⟨0, _⟩ => show win0_7.index t (0 : Fin 1) * 1 + 1 * u.val = u.val; rw [e0]; omega

/-! ## What a point writes back -/

/-- The result's block at point `t`: its row `p` is row `16 t + p` of the array. -/
theorem result_block (t : Fin cfg0.N) (p : Fin 16) (f : Fin 2048) (b : Fin 256) (hb : b.val = t.val * 16 + p.val) :
    ((cfg0.win 8).blk t).view.emb (ix2 p f) = (ix2 b f : S256x2048.Idx) := by
  obtain ⟨-, -, -, -, -, -, -, -, -, -, -, -, -, -, e0, e1⟩ := idx_facts t
  funext a
  apply Fin.ext
  match a with
  | ⟨0, _⟩ => show win0_8.index t (0 : Fin 2) * 16 + 1 * p.val = b.val; rw [e0, hb]; omega
  | ⟨1, _⟩ => show win0_8.index t (1 : Fin 2) * 2048 + 1 * f.val = f.val; rw [e1]; omega

/-- Entry `j` of the body's stored value of point `t`'s input blocks is the whole result at the array index
    under `j`. -/
theorem tile_entry (c : Dev nD) (t : Fin cfg0.N) (j : S16x2048.Idx) :
    k0_pay1 (F := Ideal) (iblk m c 0 t)
        (k0_pay2 (F := Ideal) (iblk m c 0 t) (iblk m c 2 t) (iblk m c 3 t) (iblk m c 1 t) (iblk m c 4 t) (iblk m c 5 t) (iblk m c 6 t) (iblk m c 7 t))
        (k0_pay3 (F := Ideal) (iblk m c 0 t) (iblk m c 2 t) (iblk m c 3 t) (iblk m c 1 t) (iblk m c 4 t) (iblk m c 5 t) (iblk m c 6 t) (iblk m c 7 t)) j
      = result m c (((cfg0.win 8).blk t).view.emb j) := by
  obtain ⟨p, f, rfl⟩ : ∃ (p : Fin 16) (f : Fin 2048), j = ix2 p f := ⟨j 0, j 1, eq_ix2 j⟩
  have hN : cfg0.N = 16 := N_0
  have ht : t.val < cfg0.N := t.isLt
  have hp : p.val < 16 := p.isLt
  have hb : t.val * 16 + p.val < 256 := by omega
  refine (Tile.tile_apply (iblk m c 0 t) (iblk m c 2 t) (iblk m c 3 t) (iblk m c 1 t) (iblk m c 4 t) (iblk m c 5 t)
    (iblk m c 6 t) (iblk m c 7 t) p f).trans ?_
  rw [result_block t p f ⟨t.val * 16 + p.val, hb⟩ rfl]
  exact attendTileAt_eq_attendAt _ _ _ _ _ _ _ _ _ _ _ _ _ _ _ _ p ⟨t.val * 16 + p.val, hb⟩ f
    (fun r f' => features_block m c t p r f' _ rfl) (fun h => state_block m c t p h _ rfl)
    (fun f' d => W_block m c t f' d) (fun d => bW_block m c t d) (fun h d => U_block m c t h d)
    (fun d => bU_block m c t d) (fun d => v_block m c t d 0) (bv_block m c t 0)

/-- WHAT POINT `t` WRITES BACK is block `t` of the whole result. -/
theorem flushed_eq (c : Dev nD) (t : Fin cfg0.N) :
    (dats m 0 c).flushed 8 t = ((cfg0.win 8).blk t).view.read (Elt Ideal) (result m c) := by
  rw [flushed8]
  unfold out0_8
  rw [View.canon_unit_zero hz2]
  simp only [View.ld_unit_zero (S := S16x64x2048) hz3, View.ld_unit_zero (S := S2048x512) hz2,
    View.ld_unit_zero (S := S512) hz1, View.ld_unit_zero (S := S16x512) hz2, View.ld_unit_zero (S := S512x512) hz2,
    View.ld_unit_zero (S := S512x1) hz2, View.ld_unit_zero (S := S1) hz1]
  funext j
  exact tile_entry m c t j

/-! ## The blocks cover the array -/

/-- An index of the array is in point `t`'s block iff each coordinate is in the block's range on its axis. -/
theorem mem_block (t : Fin cfg0.N) (i : S256x2048.Idx) :
    i ∈ ((cfg0.win 8).blk t).view.set ↔ ∀ a : Fin 2, win0_8.index t a * S16x2048.size a ≤ (i a).val ∧ (i a).val < win0_8.index t a * S16x2048.size a + S16x2048.size a := by
  show i ∈ ((View.whole main_v0).slice (win0_8.rect t)).set ↔ _
  rw [View.set_slice_whole, Rect.mem_set_unit]
  exact Iff.rfl

/-- Row `b` of the result is written back by the point `b / 16`. -/
theorem covered (i : S256x2048.Idx) :
    ∃ t : Fin cfg0.N, (cfg0.win 8).flush t = true ∧ i ∈ ((cfg0.win 8).blk t).view.set := by
  have hN : cfg0.N = 16 := N_0
  have h0 : (i 0).val < 256 := (i 0).isLt
  have h1 : (i 1).val < 2048 := (i 1).isLt
  have hq : (i 0).val / 16 < cfg0.N := by omega
  obtain ⟨-, -, -, -, -, -, -, -, -, -, -, -, -, -, e0, e1⟩ := idx_facts ⟨(i 0).val / 16, hq⟩
  refine ⟨⟨(i 0).val / 16, hq⟩, flush0_8 _, ?_⟩
  rw [mem_block]
  intro a
  match a with
  | ⟨0, _⟩ =>
    show win0_8.index ⟨(i 0).val / 16, hq⟩ (0 : Fin 2) * 16 ≤ (i 0).val ∧ (i 0).val < win0_8.index ⟨(i 0).val / 16, hq⟩ (0 : Fin 2) * 16 + 16
    rw [e0]
    show (i 0).val / 16 * 16 ≤ (i 0).val ∧ (i 0).val < (i 0).val / 16 * 16 + 16
    omega
  | ⟨1, _⟩ =>
    show win0_8.index ⟨(i 0).val / 16, hq⟩ (1 : Fin 2) * 2048 ≤ (i 1).val ∧ (i 1).val < win0_8.index ⟨(i 0).val / 16, hq⟩ (1 : Fin 2) * 2048 + 2048
    rw [e1]
    omega

/-- THE ARRAY after the run is the whole result of the argument arrays. -/
theorem final (c : Dev nD) : (dats m 0 c).arrAt 8 cfg0.N = result m c :=
  (dats m 0 c).arrAt_eq_of_cover 8 (result m c) (fun t _ => flushed_eq m c t) covered

/-! ## The run, read -/

/-- Every weakly fair execution terminates with the result array at `attend` of the argument arrays and the
    arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.ReferenceIsAttention.lean ====
import proofs.«141212_j84464826843938_1_alg».proof.Proof.Gen.ReferenceIdeal.Read
import proofs.«141212_j84464826843938_1_alg».proof.Proof.AttentionSpec
import Idealize.ShloMosaic.PureOps.Ideal.Laws
import Idealize.ShloMosaic.Lib.ValueIdx
noncomputable section
open scoped BigOperators
namespace Cert.ReferenceIdeal.RefValue
open Cert.ReferenceIdeal Cert.ReferenceIdeal.Read Cert.Attention Idealize.ShloMosaic Idealize.ShloMosaic.ValueIdx

/-!
  The reference program read stage by stage, at explicit coordinates.

  Each generated stage is read at an index built from its coordinates (batch row `b`, position `r`, hidden unit `d`,
  feature `f`), where the generated index functions compute to coordinate-built indices again. Composing the stages
  gives, in turn, the specification's `query`, `hidden`, `score`, `peak`, `unnorm`, `total`, `weight` and `context`
  of batch row `b`. The only stage that is not a pointwise read is the maximum over the positions: it is the fold of
  `max` from -∞ over the reduced axis's coordinates, the index read at position `r` being the row's index with `r`
  inserted. The two sums start from the word of zero, which is the extended real `0`.
-/

/-! ## The generated index functions at indices built from coordinates -/

theorem lidx0 (b : Fin 256) (d k : Fin 512) : lidx_main_v0 (ix2 b d) k = ix2 b k :=
  funext fun a => by match a with | ⟨0, _⟩ => rfl | ⟨1, _⟩ => rfl
theorem ridx0 (b : Fin 256) (d k : Fin 512) : ridx_main_v0 (ix2 b d) k = ix2 k d :=
  funext fun a => by match a with | ⟨0, _⟩ => rfl | ⟨1, _⟩ => rfl
theorem idx1 (z : Fin 1) (d : Fin 512) : idx_main_v1 (ix2 z d) = ix1 d :=
  funext fun a => by match a with | ⟨0, _⟩ => rfl
theorem idx2 (b : Fin 256) (d : Fin 512) : idx_main_v2 (ix2 b d) = ix2 (0 : Fin 1) d :=
  funext fun a => by match a with | ⟨0, _⟩ => rfl | ⟨1, _⟩ => rfl

/-- Stages 0 to 3: the projected previous state. -/
theorem v3_eq (x1 : FVec Ideal S256x512 .f32) (x4 : FVec Ideal S512x512 .f32) (x5 : FVec Ideal S512 .f32)
    (b : Fin 256) (d : Fin 512) :
    val_main_v3 (F := Ideal) x1 x4 x5 (ix2 b d)
      = query (fun h => x1 (ix2 b h)) (fun h d => x4 (ix2 h d)) (fun d => x5 (ix1 d)) d := by
  rw [val_main_v3_apply, val_main_v0_apply, val_main_v2_apply, idx2, val_main_v1_apply, idx1]
  simp only [lidx0, ridx0]
  rfl

theorem idx4 (b : Fin 256) (z : Fin 1) (d : Fin 512) : idx_main_v4 (ix3 b z d) = ix2 b d :=
  funext fun a => by match a with | ⟨0, _⟩ => rfl | ⟨1, _⟩ => rfl
theorem lidx5 (b : Fin 256) (r : Fin 64) (d : Fin 512) (k : Fin 2048) : lidx_main_v5 (ix3 b r d) k = ix3 b r k :=
  funext fun a => by match a with | ⟨0, _⟩ => rfl | ⟨1, _⟩ => rfl | ⟨2, _⟩ => rfl
theorem ridx5 (b : Fin 256) (r : Fin 64) (d : Fin 512) (k : Fin 2048) : ridx_main_v5 (ix3 b r d) k = ix2 k d :=
  funext fun a => by match a with | ⟨0, _⟩ => rfl | ⟨1, _⟩ => rfl
theorem idx6 (z z' : Fin 1) (d : Fin 512) : idx_main_v6 (ix3 z z' d) = ix1 d :=
  funext fun a => by match a with | ⟨0, _⟩ => rfl
theorem idx7 (b : Fin 256) (r : Fin 64) (d : Fin 512) : idx_main_v7 (ix3 b r d) = ix3 (0 : Fin 1) (0 : Fin 1) d :=
  funext fun a => by match a with | ⟨0, _⟩ => rfl | ⟨1, _⟩ => rfl | ⟨2, _⟩ => rfl
theorem idx9 (b : Fin 256) (r : Fin 64) (d : Fin 512) : idx_main_v9 (ix3 b r d) = ix3 b (0 : Fin 1) d :=
  funext fun a => by match a with | ⟨0, _⟩ => rfl | ⟨1, _⟩ => rfl | ⟨2, _⟩ => rfl
theorem lidx12 (b : Fin 256) (r : Fin 64) (z : Fin 1) (k : Fin 512) : lidx_main_v12 (ix3 b r z) k = ix3 b r k :=
  funext fun a => by match a with | ⟨0, _⟩ => rfl | ⟨1, _⟩ => rfl | ⟨2, _⟩ => rfl
theorem ridx12 (b : Fin 256) (r : Fin 64) (z : Fin 1) (k : Fin 512) : ridx_main_v12 (ix3 b r z) k = ix2 k z :=
  funext fun a => by match a with | ⟨0, _⟩ => rfl | ⟨1, _⟩ => rfl
theorem idx13 (i : S1x1x1.Idx) : idx_main_v13 i = ix1 (0 : Fin 1) :=
  funext fun a => by match a with | ⟨0, _⟩ => rfl

/-- Stages 4 to 11: the hidden units of position `r` of batch row `b`. -/
theorem v11_eq (x0 : FVec Ideal S256x64x2048 .f32) (x1 : FVec Ideal S256x512 .f32) (x2 : FVec Ideal S2048x512 .f32)
    (x3 : FVec Ideal S512 .f32) (x4 : FVec Ideal S512x512 .f32) (x5 : FVec Ideal S512 .f32)
    (b : Fin 256) (r : Fin 64) (d : Fin 512) :
    val_main_v11 (F := Ideal) x0 x1 x2 x3 x4 x5 (ix3 b r d)
      = hidden (fun r f => x0 (ix3 b r f)) (fun h => x1 (ix2 b h)) (fun f d => x2 (ix2 f d)) (fun d => x3 (ix1 d))
          (fun h d => x4 (ix2 h d)) (fun d => x5 (ix1 d)) r d := by
  rw [val_main_v11_apply, val_main_v10_apply, val_main_v8_apply, val_main_v5_apply, val_main_v7_apply, idx7,
    val_main_v6_apply, idx6, val_main_v9_apply, idx9, val_main_v4_apply, idx4, v3_eq]
  simp only [lidx5, ridx5]
  rfl

/-- Stages 12 to 15: the score of position `r` of batch row `b`. -/
theorem v15_eq (x0 : FVec Ideal S256x64x2048 .f32) (x1 : FVec Ideal S256x512 .f32) (x2 : FVec Ideal S2048x512 .f32)
    (x3 : FVec Ideal S512 .f32) (x4 : FVec Ideal S512x512 .f32) (x5 : FVec Ideal S512 .f32)
    (x6 : FVec Ideal S512x1 .f32) (x7 : FVec Ideal S1 .f32) (b : Fin 256) (r : Fin 64) :
    val_main_v15 (F := Ideal) x0 x1 x2 x3 x4 x5 x6 x7 (ix3 b r (0 : Fin 1))
      = score (fun r f => x0 (ix3 b r f)) (fun h => x1 (ix2 b h)) (fun f d => x2 (ix2 f d)) (fun d => x3 (ix1 d))
          (fun h d => x4 (ix2 h d)) (fun d => x5 (ix1 d)) (fun d => x6 (ix2 d (0 : Fin 1))) (x7 (ix1 (0 : Fin 1))) r := by
  rw [val_main_v15_apply, val_main_v12_apply, val_main_v14_apply, val_main_v13_apply, idx13]
  simp only [lidx12, ridx12, v11_eq]
  rfl

/-- The index the max-reduction reads at position `r`: the row's index with `r` inserted on the reduced axis. -/
theorem lift16 (h : S256x64x1.Reduces [1] S256x1) (b : Fin 256) (z : Fin 1) (r : Fin 64) :
    h.lift (ix2 b z) r = ix3 b r z :=
  funext fun a => Fin.ext (by match a with | ⟨0, _⟩ => rfl | ⟨1, _⟩ => rfl | ⟨2, _⟩ => rfl)

/-- Stage 16: the fold of the maximum, from -∞, over the row's scores. -/
theorem v16_eq (x0 : FVec Ideal S256x64x2048 .f32) (x1 : FVec Ideal S256x512 .f32) (x2 : FVec Ideal S2048x512 .f32)
    (x3 : FVec Ideal S512 .f32) (x4 : FVec Ideal S512x512 .f32) (x5 : FVec Ideal S512 .f32)
    (x6 : FVec Ideal S512x1 .f32) (x7 : FVec Ideal S1 .f32) (b : Fin 256) :
    val_main_v16 (F := Ideal) x0 x1 x2 x3 x4 x5 x6 x7 (ix2 b (0 : Fin 1))
      = (Finset.univ : Finset (Fin 64)).fold max negInf
          (score (fun r f => x0 (ix3 b r f)) (fun h => x1 (ix2 b h)) (fun f d => x2 (ix2 f d)) (fun d => x3 (ix1 d))
            (fun h d => x4 (ix2 h d)) (fun d => x5 (ix1 d)) (fun d => x6 (ix2 d (0 : Fin 1))) (x7 (ix1 (0 : Fin 1)))) := by
  have h : S256x64x1.Reduces [1] S256x1 := by decide
  unfold val_main_v16
  rw [Host.reduce_eq_fold_single FloatOps.maximumf _ _ Gen.reducesTo_S256x64x1_S256x1_d1 h Gen.h_S_ (ix2 b (0 : Fin 1))]
  have hf : (val_main_v15 (F := Ideal) x0 x1 x2 x3 x4 x5 x6 x7 ∘ h.lift (ix2 b (0 : Fin 1)))
      = score (fun r f => x0 (ix3 b r f)) (fun h => x1 (ix2 b h)) (fun f d => x2 (ix2 f d)) (fun d => x3 (ix1 d))
          (fun h d => x4 (ix2 h d)) (fun d => x5 (ix1 d)) (fun d => x6 (ix2 d (0 : Fin 1))) (x7 (ix1 (0 : Fin 1))) :=
    funext fun (r : Fin 64) =>
      (congrArg (val_main_v15 (F := Ideal) x0 x1 x2 x3 x4 x5 x6 x7) (lift16 h b 0 r)).trans
        (v15_eq x0 x1 x2 x3 x4 x5 x6 x7 b r)
  rw [hf]
  rfl

theorem idx19 (b : Fin 256) (z z' : Fin 1) : idx_main_v19 (ix3 b z z') = ix2 b (0 : Fin 1) :=
  funext fun a => by match a with | ⟨0, _⟩ => rfl | ⟨1, _⟩ => rfl
theorem idx20 (b : Fin 256) (r : Fin 64) (z : Fin 1) : idx_main_v20 (ix3 b r z) = ix3 b (0 : Fin 1) (0 : Fin 1) :=
  funext fun a => by match a with | ⟨0, _⟩ => rfl | ⟨1, _⟩ => rfl | ⟨2, _⟩ => rfl
theorem idx23 (b : Fin 256) (z : Fin 1) (k : Fin 64) : idx_main_v23 (ix2 b z) k = ix3 b k z :=
  funext fun a => by match a with | ⟨0, _⟩ => rfl | ⟨1, _⟩ => rfl | ⟨2, _⟩ => rfl
theorem idx24 (b : Fin 256) (z z' : Fin 1) : idx_main_v24 (ix3 b z z') = ix2 b (0 : Fin 1) :=
  funext fun a => by match a with | ⟨0, _⟩ => rfl | ⟨1, _⟩ => rfl
theorem idx25 (b : Fin 256) (r : Fin 64) (z : Fin 1) : idx_main_v25 (ix3 b r z) = ix3 b (0 : Fin 1) (0 : Fin 1) :=
  funext fun a => by match a with | ⟨0, _⟩ => rfl | ⟨1, _⟩ => rfl | ⟨2, _⟩ => rfl
theorem idx27 (b : Fin 256) (r : Fin 64) (f : Fin 2048) : idx_main_v27 (ix3 b r f) = ix3 b r (0 : Fin 1) :=
  funext fun a => by match a with | ⟨0, _⟩ => rfl | ⟨1, _⟩ => rfl | ⟨2, _⟩ => rfl
theorem idx29 (b : Fin 256) (f : Fin 2048) (k : Fin 64) : idx_main_v29 (ix2 b f) k = ix3 b k f :=
  funext fun a => by match a with | ⟨0, _⟩ => rfl | ⟨1, _⟩ => rfl | ⟨2, _⟩ => rfl

/-- Stages 17 and 18: the row's largest score. -/
theorem v18_eq (x0 : FVec Ideal S256x64x2048 .f32) (x1 : FVec Ideal S256x512 .f32) (x2 : FVec Ideal S2048x512 .f32)
    (x3 : FVec Ideal S512 .f32) (x4 : FVec Ideal S512x512 .f32) (x5 : FVec Ideal S512 .f32)
    (x6 : FVec Ideal S512x1 .f32) (x7 : FVec Ideal S1 .f32) (b : Fin 256) :
    val_main_v18 (F := Ideal) x0 x1 x2 x3 x4 x5 x6 x7 (ix2 b (0 : Fin 1))
      = peak (fun r f => x0 (ix3 b r f)) (fun h => x1 (ix2 b h)) (fun f d => x2 (ix2 f d)) (fun d => x3 (ix1 d))
          (fun h d => x4 (ix2 h d)) (fun d => x5 (ix1 d)) (fun d => x6 (ix2 d (0 : Fin 1))) (x7 (ix1 (0 : Fin 1))) := by
  rw [val_main_v18_apply, v16_eq, val_main_v17_apply, val_main_cst_0_apply]
  rfl

/-- Stages 19 to 22: the exponential of the shifted score. -/
theorem v22_eq (x0 : FVec Ideal S256x64x2048 .f32) (x1 : FVec Ideal S256x512 .f32) (x2 : FVec Ideal S2048x512 .f32)
    (x3 : FVec Ideal S512 .f32) (x4 : FVec Ideal S512x512 .f32) (x5 : FVec Ideal S512 .f32)
    (x6 : FVec Ideal S512x1 .f32) (x7 : FVec Ideal S1 .f32) (b : Fin 256) (r : Fin 64) :
    val_main_v22 (F := Ideal) x0 x1 x2 x3 x4 x5 x6 x7 (ix3 b r (0 : Fin 1))
      = unnorm (fun r f => x0 (ix3 b r f)) (fun h => x1 (ix2 b h)) (fun f d => x2 (ix2 f d)) (fun d => x3 (ix1 d))
          (fun h d => x4 (ix2 h d)) (fun d => x5 (ix1 d)) (fun d => x6 (ix2 d (0 : Fin 1))) (x7 (ix1 (0 : Fin 1))) r := by
  rw [val_main_v22_apply, val_main_v21_apply, v15_eq, val_main_v20_apply, idx20, val_main_v19_apply, idx19, v18_eq]
  rfl

/-- Stage 23: the softmax's denominator; the sum starts from the word of zero. -/
theorem v23_eq (x0 : FVec Ideal S256x64x2048 .f32) (x1 : FVec Ideal S256x512 .f32) (x2 : FVec Ideal S2048x512 .f32)
    (x3 : FVec Ideal S512 .f32) (x4 : FVec Ideal S512x512 .f32) (x5 : FVec Ideal S512 .f32)
    (x6 : FVec Ideal S512x1 .f32) (x7 : FVec Ideal S1 .f32) (b : Fin 256) :
    val_main_v23 (F := Ideal) x0 x1 x2 x3 x4 x5 x6 x7 (ix2 b (0 : Fin 1))
      = total (fun r f => x0 (ix3 b r f)) (fun h => x1 (ix2 b h)) (fun f d => x2 (ix2 f d)) (fun d => x3 (ix1 d))
          (fun h d => x4 (ix2 h d)) (fun d => x5 (ix1 d)) (fun d => x6 (ix2 d (0 : Fin 1))) (x7 (ix1 (0 : Fin 1))) := by
  rw [val_main_v23_apply, val_main_cst_1_apply]
  simp only [idx23, v22_eq]
  show Ideal.ofBits .f32 0x00000000#32 + _ = _
  rw [Ideal.ofBits_zero_f32, zero_add]
  rfl

/-- Stages 24 to 26: the attention weight. -/
theorem v26_eq (x0 : FVec Ideal S256x64x2048 .f32) (x1 : FVec Ideal S256x512 .f32) (x2 : FVec Ideal S2048x512 .f32)
    (x3 : FVec Ideal S512 .f32) (x4 : FVec Ideal S512x512 .f32) (x5 : FVec Ideal S512 .f32)
    (x6 : FVec Ideal S512x1 .f32) (x7 : FVec Ideal S1 .f32) (b : Fin 256) (r : Fin 64) :
    val_main_v26 (F := Ideal) x0 x1 x2 x3 x4 x5 x6 x7 (ix3 b r (0 : Fin 1))
      = weight (fun r f => x0 (ix3 b r f)) (fun h => x1 (ix2 b h)) (fun f d => x2 (ix2 f d)) (fun d => x3 (ix1 d))
          (fun h d => x4 (ix2 h d)) (fun d => x5 (ix1 d)) (fun d => x6 (ix2 d (0 : Fin 1))) (x7 (ix1 (0 : Fin 1))) r := by
  rw [val_main_v26_apply, v22_eq, val_main_v25_apply, idx25, val_main_v24_apply, idx24, v23_eq]
  rfl

/-- Stages 27 to 29: the context vector's entry. -/
theorem v29_eq (x0 : FVec Ideal S256x64x2048 .f32) (x1 : FVec Ideal S256x512 .f32) (x2 : FVec Ideal S2048x512 .f32)
    (x3 : FVec Ideal S512 .f32) (x4 : FVec Ideal S512x512 .f32) (x5 : FVec Ideal S512 .f32)
    (x6 : FVec Ideal S512x1 .f32) (x7 : FVec Ideal S1 .f32) (b : Fin 256) (f : Fin 2048) :
    val_main_v29 (F := Ideal) x0 x1 x2 x3 x4 x5 x6 x7 (ix2 b f)
      = context (fun r f => x0 (ix3 b r f)) (fun h => x1 (ix2 b h)) (fun f d => x2 (ix2 f d)) (fun d => x3 (ix1 d))
          (fun h d => x4 (ix2 h d)) (fun d => x5 (ix1 d)) (fun d => x6 (ix2 d (0 : Fin 1))) (x7 (ix1 (0 : Fin 1))) f := by
  rw [val_main_v29_apply, val_main_cst_2_apply]
  simp only [idx29, val_main_v28_apply, val_main_v27_apply, idx27, v26_eq]
  show Ideal.ofBits .f32 0x00000000#32 + _ = _
  rw [Ideal.ofBits_zero_f32, zero_add]
  rfl

/-- The reference's last stage is the specification, as functions of the eight argument arrays. -/
theorem result_eq (x0 : FVec Ideal S256x64x2048 .f32) (x1 : FVec Ideal S256x512 .f32) (x2 : FVec Ideal S2048x512 .f32)
    (x3 : FVec Ideal S512 .f32) (x4 : FVec Ideal S512x512 .f32) (x5 : FVec Ideal S512 .f32)
    (x6 : FVec Ideal S512x1 .f32) (x7 : FVec Ideal S1 .f32) :
    val_main_v29 (F := Ideal) x0 x1 x2 x3 x4 x5 x6 x7 = attend x0 x1 x2 x3 x4 x5 x6 x7 := by
  funext i
  obtain ⟨b, f, rfl⟩ : ∃ (b : Fin 256) (f : Fin 2048), i = ix2 b f := ⟨i 0, i 1, eq_ix2 i⟩
  rw [v29_eq]
  rfl

end Cert.ReferenceIdeal.RefValue
end
-- ==== Proof.lean ====
/-
  Additive attention: a kernel that streams tiles of 16 batch rows against the plain array program.

  Both programs compute, for each of 256 batch rows, the context vector
    context f = Σ_r softmax_r (score r) · x r f,   score r = Σ_d tanh ((x r · W + bW) d + (state · U + bU) d) · v d + bv,
  with the softmax stabilised by the row's largest score (Proof/AttentionSpec.lean states it on the extended reals).
  At the exact instance a change of float format is the identity, a matrix product into a zero accumulator and the
  array program's contraction are the same sum, and a lane reduction and the array program's reduction are the same
  sum or the same maximum; what differs is layout only: the kernel flattens (batch row, position) pairs to 1024
  rows for its matrix products and works on 16 batch rows at a time. So no algebraic law beyond re-indexing is
  needed, and the inputs' finiteness is never used.

  The kernel's side: each stage of the body read at an index (Proof/TilePayload.lean over Proof/TileLayout.lean and
  Proof/TileMatmul.lean), then the write-backs of the 16 grid points assembled into the whole array
  (Proof/TilesToArray.lean over the generated blockwise value leg). The reference's side: its generated run read stage
  by stage (Proof/ReferenceIsAttention.lean over the generated read-at-an-index lemmas). Both end at the one function
  `Cert.Attention.attend` of the argument arrays. The three frames are the generated ones; the idealization rewrote no
  operation, so there is nothing to preserve.
-/
import proofs.«141212_j84464826843938_1_alg».proof.Defs
import proofs.«141212_j84464826843938_1_alg».proof.Proof.Gen.Kernel
import proofs.«141212_j84464826843938_1_alg».proof.Proof.Gen.Kernel.Frame
import proofs.«141212_j84464826843938_1_alg».proof.Proof.Gen.KernelIdeal
import proofs.«141212_j84464826843938_1_alg».proof.Proof.Gen.KernelIdeal.Frame
import proofs.«141212_j84464826843938_1_alg».proof.Proof.Gen.KernelIdeal.Value
import proofs.«141212_j84464826843938_1_alg».proof.Proof.Gen.ReferenceIdeal
import proofs.«141212_j84464826843938_1_alg».proof.Proof.Gen.ReferenceIdeal.Run
import proofs.«141212_j84464826843938_1_alg».proof.Proof.Gen.ReferenceIdeal.Read
import proofs.«141212_j84464826843938_1_alg».proof.Proof.Gen.Pre_finite_inputs
import proofs.«141212_j84464826843938_1_alg».proof.Proof.TilesToArray
import proofs.«141212_j84464826843938_1_alg».proof.Proof.ReferenceIsAttention
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- The array program's run, with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel's result array ends at `attend` of its arguments and the
    array program's at its last stage of its own, which is `attend` of them too. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v29_eq, Cert.ReferenceIdeal.RefValue.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
